-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S11008 : S_.BroadcastsInDim S11008 (![] : Fin 0 → Fin S11008.rank)
  reducesTo_S11008_S_d0 : S11008.ReducesTo [0] S_
  bcast_S_S16x4096 : S_.BroadcastsInDim S16x4096 (![] : Fin 0 → Fin S16x4096.rank)
  reducesTo_S16x4096_S_d0_1 : S16x4096.ReducesTo [0, 1] S_
  bcast_S_S11008x16 : S_.BroadcastsInDim S11008x16 (![] : Fin 0 → Fin S11008x16.rank)
  reducesTo_S11008x16_S_d0_1 : S11008x16.ReducesTo [0, 1] S_

variable [Facts]

def fn_part1 {F : FTy → Type} [FloatOps F] (main_v13 : IVec S_ 1) (main_v16 : IVec S11008x16 1) : IVec S_ 1 :=
  let main_c_5 : IVec S_ 1 := constantI S_ 1 1#1
  let main_v17 : IVec S_ 1 := (fun x v => Host.reduce IntOp.andi x v reducesTo_S11008x16_S_d0_1 h_S_) main_v16 main_c_5
  let main_v18 : IVec S_ 1 := andi main_v13 main_v17
  main_v18

def fn {F : FTy → Type} [FloatOps F] (main_arg0 : FVec F S64x4096 .f32) (main_arg1 : IVec S11008x4096 32) (main_arg2 : FVec F S11008 .f32) (main_arg3 : FVec F S16x4096 .f32) (main_arg4 : FVec F S11008x16 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S11008 .f32 := Host.absf main_arg2
  let main_cst_0 : FVec F S_ .f32 := constant S_ .f32 0x7F800000#32
  let main_v5 : FVec F S11008 .f32 := broadcastInDim S11008 ![] bcast_S_S11008 main_cst_0
  let main_v6 : IVec S11008 1 := cmpf .olt main_v4 main_v5
  let main_c_1 : IVec S_ 1 := constantI S_ 1 1#1
  let main_v7 : IVec S_ 1 := (fun x v => Host.reduce IntOp.andi x v reducesTo_S11008_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S11008x16 .f32 := Host.absf main_arg4
  let main_cst_4 : FVec F S_ .f32 := constant S_ .f32 0x7F800000#32
  let main_v15 : FVec F S11008x16 .f32 := broadcastInDim S11008x16 ![] bcast_S_S11008x16 main_cst_4
  let main_v16 : IVec S11008x16 1 := cmpf .olt main_v14 main_v15
  fn_part1 (F := F) main_v13 main_v16
-- ==== Kernel.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S1x11008 : Shape := ⟨2, ![1, 11008]⟩
abbrev S4096x16 : Shape := ⟨2, ![4096, 16]⟩
abbrev S64x16 : Shape := ⟨2, ![64, 16]⟩
abbrev S64x11008 : Shape := ⟨2, ![64, 11008]⟩
abbrev S256x4096 : Shape := ⟨2, ![256, 4096]⟩
abbrev S1x256 : Shape := ⟨2, ![1, 256]⟩
abbrev S256x16 : Shape := ⟨2, ![256, 16]⟩
abbrev S64x256 : Shape := ⟨2, ![64, 256]⟩

abbrev nBuf : Space → Nat
  | .hbm => 11
  | .vmem => 10
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S1x11008, .f32⟩
  | .hbm, ⟨6, _⟩ => ⟨S64x4096, .bf16⟩
  | .hbm, ⟨7, _⟩ => ⟨S4096x16, .f32⟩
  | .hbm, ⟨8, _⟩ => ⟨S64x16, .f32⟩
  | .hbm, ⟨9, _⟩ => ⟨S64x16, .bf16⟩
  | .hbm, ⟨10, _⟩ => ⟨S64x11008, .f32⟩
  | .local _ .vmem, ⟨0, _⟩ => ⟨S64x4096, .bf16⟩
  | .local _ .vmem, ⟨1, _⟩ => ⟨S256x4096, .i32⟩
  | .local _ .vmem, ⟨2, _⟩ => ⟨S256x4096, .i32⟩
  | .local _ .vmem, ⟨3, _⟩ => ⟨S1x256, .f32⟩
  | .local _ .vmem, ⟨4, _⟩ => ⟨S1x256, .f32⟩
  | .local _ .vmem, ⟨5, _⟩ => ⟨S64x16, .bf16⟩
  | .local _ .vmem, ⟨6, _⟩ => ⟨S256x16, .f32⟩
  | .local _ .vmem, ⟨7, _⟩ => ⟨S256x16, .f32⟩
  | .local _ .vmem, ⟨8, _⟩ => ⟨S64x256, .f32⟩
  | .local _ .vmem, ⟨9, _⟩ => ⟨S64x256, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S11008_S1x11008 : S11008.ShapeCasts S1x11008
  bitsLt_bf16_f32 : FTy.bits .bf16 < FTy.bits .f32
  transposes_S16x4096_S4096x16_1_0 : S16x4096.Transposes [1, 0] S4096x16
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S256x4096_S256x4096_0_0 : ∀ a, (![0, 0] : Fin 2 → Nat) a + S256x4096.size a ≤ S256x4096.size a
  h_S256x4096 : 0 < S256x4096.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S256x16_S256x16_0_0 : ∀ a, (![0, 0] : Fin 2 → Nat) a + S256x16.size a ≤ S256x16.size a
  h_S256x16 : 0 < S256x16.numel
  inb_S64x256_S64x256_0_0 : ∀ a, (![0, 0] : Fin 2 → Nat) a + S64x256.size a ≤ S64x256.size a
  h_S64x256 : 0 < S64x256.numel
  dot_S64x4096_S4096x16_S64x16_1_0_0_1_n_n_wf : DotDims.WF S64x4096 S4096x16 S64x16 [1] [0] [0] [1] [] []
  dot_S64x4096_S256x4096_S64x256_1_1_0_0_n_n_wf : DotDims.WF S64x4096 S256x4096 S64x256 [1] [1] [0] [0] [] []
  dot_S64x16_S256x16_S64x256_1_1_0_0_n_n_wf : DotDims.WF S64x16 S256x16 S64x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .bf16 = 32 ∨ (Rect.block (s := S64x4096) S64x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x11008.size a
  hwx0_2 : ∀ i : grid0.Coords, EltTy.bits .f32 = 32 ∨ (Rect.block (s := S1x11008) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .bf16 = 32 ∨ (Rect.block (s := S64x16) S64x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x16.size a ≤ S11008x16.size a
  hwx0_4 : ∀ i : grid0.Coords, EltTy.bits .f32 = 32 ∨ (Rect.block (s := S11008x16) S256x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x256.size a ≤ S64x11008.size a
  hwx0_5 : ∀ i : grid0.Coords, EltTy.bits .f32 = 32 ∨ (Rect.block (s := S64x11008) S64x256.size (cc0_transform_5 i) (hinb0_5 i)).WholeWords (EltTy.packing .f32)

variable [Facts₀]

def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x4096_S256x4096_S64x256_1_1_0_0_n_n : DotDims S64x4096 S256x4096 S64x256 where
  lhsContracting := [1]
  rhsContracting := [1]
  lhsNonContracting := [0]
  rhsNonContracting := [0]
  lhsBatch := []
  rhsBatch := []
  wf := dot_S64x4096_S256x4096_S64x256_1_1_0_0_n_n_wf
def dot_S64x16_S256x16_S64x256_1_1_0_0_n_n : DotDims S64x16 S256x16 S64x256 where
  lhsContracting := [1]
  rhsContracting := [1]
  lhsNonContracting := [0]
  rhsNonContracting := [0]
  lhsBatch := []
  rhsBatch := []
  wf := dot_S64x16_S256x16_S64x256_1_1_0_0_n_n_wf

abbrev win0_0 : Pipeline.Window sig grid0 :=
  Pipeline.Window.ofSpec (Memref.whole main_v1) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x16.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x4096 : Shape := ⟨2, ![64, 4096]⟩
abbrev S11008x4096 : Shape := ⟨2, ![11008, 4096]⟩
abbrev S11008 : Shape := ⟨1, ![11008]⟩
abbrev S16x4096 : Shape := ⟨2, ![16, 4096]⟩
abbrev S11008x16 : Shape := ⟨2, ![11008, 16]⟩
abbrev S11008x1 : Shape := ⟨2, ![11008, 1]⟩
abbrev S4096x11008 : Shape := ⟨2, ![4096, 11008]⟩
abbrev S64x11008 : Shape := ⟨2, ![64, 11008]⟩
abbrev S4096x16 : Shape := ⟨2, ![4096, 16]⟩
abbrev S64x16 : Shape := ⟨2, ![64, 16]⟩
abbrev S16x11008 : Shape := ⟨2, ![16, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S11008x4096, .i32⟩
  | .hbm, ⟨2, _⟩ => ⟨S11008, .f32⟩
  | .hbm, ⟨3, _⟩ => ⟨S16x4096, .f32⟩
  | .hbm, ⟨4, _⟩ => ⟨S11008x16, .f32⟩
  | .hbm, ⟨5, _⟩ => ⟨S11008x4096, .f32⟩
  | .hbm, ⟨6, _⟩ => ⟨S11008x1, .f32⟩
  | .hbm, ⟨7, _⟩ => ⟨S11008x4096, .f32⟩
  | .hbm, ⟨8, _⟩ => ⟨S11008x4096, .f32⟩
  | .hbm, ⟨9, _⟩ => ⟨S4096x11008, .f32⟩
  | .hbm, ⟨10, _⟩ => ⟨S64x11008, .f32⟩
  | .hbm, ⟨11, _⟩ => ⟨S4096x16, .f32⟩
  | .hbm, ⟨12, _⟩ => ⟨S64x16, .f32⟩
  | .hbm, ⟨13, _⟩ => ⟨S16x11008, .f32⟩
  | .hbm, ⟨14, _⟩ => ⟨S64x11008, .f32⟩
  | .hbm, ⟨15, _⟩ => ⟨S_, .f32⟩
  | .hbm, ⟨16, _⟩ => ⟨S64x11008, .f32⟩
  | .hbm, ⟨17, _⟩ => ⟨S64x11008, .f32⟩
  | .hbm, ⟨18, _⟩ => ⟨S64x11008, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  transposes_S11008x4096_S4096x11008_1_0 : S11008x4096.Transposes [1, 0] S4096x11008
  transposes_S16x4096_S4096x16_1_0 : S16x4096.Transposes [1, 0] S4096x16
  transposes_S11008x16_S16x11008_1_0 : S11008x16.Transposes [1, 0] S16x11008
  bcast_S_S64x11008 : S_.BroadcastsInDim S64x11008 (![] : Fin 0 → Fin S64x11008.rank)
  dot_S64x4096_S4096x11008_S64x11008_1_0_0_1_n_n_wf : DotDims.WF S64x4096 S4096x11008 S64x11008 [1] [0] [0] [1] [] []
  dot_S64x4096_S4096x16_S64x16_1_0_0_1_n_n_wf : DotDims.WF S64x4096 S4096x16 S64x16 [1] [0] [0] [1] [] []
  dot_S64x16_S16x11008_S64x11008_1_0_0_1_n_n_wf : DotDims.WF S64x16 S16x11008 S64x11008 [1] [0] [0] [1] [] []

variable [Facts₀]

def dot_S64x4096_S4096x11008_S64x11008_1_0_0_1_n_n : DotDims S64x4096 S4096x11008 S64x11008 where
  lhsContracting := [1]
  rhsContracting := [0]
  lhsNonContracting := [0]
  rhsNonContracting := [1]
  lhsBatch := []
  rhsBatch := []
  wf := dot_S64x4096_S4096x11008_S64x11008_1_0_0_1_n_n_wf
def dot_S64x4096_S4096x16_S64x16_1_0_0_1_n_n : DotDims S64x4096 S4096x16 S64x16 where
  lhsContracting := [1]
  rhsContracting := [0]
  lhsNonContracting := [0]
  rhsNonContracting := [1]
  lhsBatch := []
  rhsBatch := []
  wf := dot_S64x4096_S4096x16_S64x16_1_0_0_1_n_n_wf
def dot_S64x16_S16x11008_S64x11008_1_0_0_1_n_n : DotDims S64x16 S16x11008 S64x11008 where
  lhsContracting := [1]
  rhsContracting := [0]
  lhsNonContracting := [0]
  rhsNonContracting := [1]
  lhsBatch := []
  rhsBatch := []
  wf := dot_S64x16_S16x11008_S64x11008_1_0_0_1_n_n_wf

class Facts : Prop extends Facts₀ where

variable [Facts]
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.Spec.lean ====
/-
  What both programs compute, and the one law that joins their two arrangements.

  Inputs: activations `x : 64 × 4096`, integer weights `q : 11008 × 4096`, one scale per output column `s : 11008`, and the two
  low-rank factors `A : 16 × 4096`, `B : 11008 × 16`. The output entry `(n, o)` is

      base(n, o) + ((∑ r, (∑ k, x[n,k]·A[r,k]) · B[o,r]) · 2),

  where the base product is written in two ways. DEQUANTISE FIRST: `∑ k, x[n,k] · (q[o,k] · s[o])` — every weight is scaled,
  then the products are summed. DEQUANTISE LAST: `(∑ k, x[n,k] · q[o,k]) · s[o]` — the integer products are summed and the
  column's scale is applied once. For real numbers the two agree because multiplication distributes over a finite sum; over the
  extended reals that law can fail at an infinity, so it is stated for activations and scales that are real. The integers `q`
  are read as reals and are always finite; the low-rank term is literally the same on both sides.
-/
import Idealize.ShloMosaic.PureOps.Ideal
import Idealize.ShloMosaic.Lib.ValueIdx

noncomputable section

open scoped BigOperators

namespace Cert.QLora

open Idealize.ShloMosaic Idealize.ShloMosaic.ValueIdx

/-! ## The law -/

/-- The cast of a finite sum of reals is the sum of the casts. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- SCALING AFTER THE SUM IS SCALING EVERY TERM, for real activations `x`, real weights `q` and a real scale `s`:
    `(∑ k, x k · q k) · s = ∑ k, x k · (q k · s)`. -/
theorem sum_mul_scale {ι : Type} [Fintype ι] (x : ι → EReal) (q : ι → ℝ) (s : EReal)
    (hx : ∀ k, ∃ r : ℝ, x k = r) (hs : ∃ r : ℝ, s = r) :
    (∑ k, x k * (q k : EReal)) * s = ∑ k, x k * ((q k : EReal) * s) := by
  choose x' hx' using hx
  obtain ⟨s', rfl⟩ := hs
  simp only [hx', ← EReal.coe_mul, ← coe_sum]
  rw [Finset.sum_mul]
  congr 1
  exact Finset.sum_congr rfl fun k _ => mul_assoc _ _ _

/-! ## The two arrangements -/

/-- The rank-16 intermediate: entry `(n, r)` is the inner product of row `n` of `x` and row `r` of `A`. -/
def lowRank (x : (⟨2, ![64, 4096]⟩ : Shape).Idx → EReal) (A : (⟨2, ![16, 4096]⟩ : Shape).Idx → EReal) (n : Fin 64) (r : Fin 16) : EReal :=
  ∑ k : Fin 4096, x (ix2 n k) * A (ix2 r k)

/-- The low-rank correction at `(n, o)`: the intermediate's row `n` against row `o` of `B`, times the constant 2. -/
def lowRankTerm (x : (⟨2, ![64, 4096]⟩ : Shape).Idx → EReal) (A : (⟨2, ![16, 4096]⟩ : Shape).Idx → EReal)
    (B : (⟨2, ![11008, 16]⟩ : Shape).Idx → EReal) (n : Fin 64) (o : Fin 11008) : EReal :=
  (∑ r : Fin 16, lowRank x A n r * B (ix2 o r)) * Ideal.ofBits .f32 0x40000000#32

/-- DEQUANTISE FIRST, at `(n, o)`: each integer weight is scaled by its column's scale before the product is summed. -/
def dequantFirstAt (x : (⟨2, ![64, 4096]⟩ : Shape).Idx → EReal) (q : (⟨2, ![11008, 4096]⟩ : Shape).Idx → BitVec 32)
    (s : (⟨1, ![11008]⟩ : Shape).Idx → EReal) (A : (⟨2, ![16, 4096]⟩ : Shape).Idx → EReal)
    (B : (⟨2, ![11008, 16]⟩ : Shape).Idx → EReal) (n : Fin 64) (o : Fin 11008) : EReal :=
  (∑ k : Fin 4096, x (ix2 n k) * ((((q (ix2 o k)).toInt : ℝ) : EReal) * s (ix1 o))) + lowRankTerm x A B n o

/-- DEQUANTISE LAST, at `(n, o)`: the integer products are summed, then the column's scale is applied once. -/
def dequantLastAt (x : (⟨2, ![64, 4096]⟩ : Shape).Idx → EReal) (q : (⟨2, ![11008, 4096]⟩ : Shape).Idx → BitVec 32)
    (s : (⟨1, ![11008]⟩ : Shape).Idx → EReal) (A : (⟨2, ![16, 4096]⟩ : Shape).Idx → EReal)
    (B : (⟨2, ![11008, 16]⟩ : Shape).Idx → EReal) (n : Fin 64) (o : Fin 11008) : EReal :=
  (∑ k : Fin 4096, x (ix2 n k) * (((q (ix2 o k)).toInt : ℝ) : EReal)) * s (ix1 o) + lowRankTerm x A B n o

/-- The whole `64 × 11008` output, dequantising first … -/
def dequantFirst (x : (⟨2, ![64, 4096]⟩ : Shape).Idx → EReal) (q : (⟨2, ![11008, 4096]⟩ : Shape).Idx → BitVec 32)
    (s : (⟨1, ![11008]⟩ : Shape).Idx → EReal) (A : (⟨2, ![16, 4096]⟩ : Shape).Idx → EReal)
    (B : (⟨2, ![11008, 16]⟩ : Shape).Idx → EReal) : (⟨2, ![64, 11008]⟩ : Shape).Idx → EReal :=
  fun i => dequantFirstAt x q s A B (i 0) (i 1)

/-- … and dequantising last. -/
def dequantLast (x : (⟨2, ![64, 4096]⟩ : Shape).Idx → EReal) (q : (⟨2, ![11008, 4096]⟩ : Shape).Idx → BitVec 32)
    (s : (⟨1, ![11008]⟩ : Shape).Idx → EReal) (A : (⟨2, ![16, 4096]⟩ : Shape).Idx → EReal)
    (B : (⟨2, ![11008, 16]⟩ : Shape).Idx → EReal) : (⟨2, ![64, 11008]⟩ : Shape).Idx → EReal :=
  fun i => dequantLastAt x q s A B (i 0) (i 1)

/-- THE TWO ARRANGEMENTS AGREE when every activation and every scale is a real number. -/
theorem dequantLast_eq_dequantFirst (x : (⟨2, ![64, 4096]⟩ : Shape).Idx → EReal) (q : (⟨2, ![11008, 4096]⟩ : Shape).Idx → BitVec 32)
    (s : (⟨1, ![11008]⟩ : Shape).Idx → EReal) (A : (⟨2, ![16, 4096]⟩ : Shape).Idx → EReal)
    (B : (⟨2, ![11008, 16]⟩ : Shape).Idx → EReal)
    (hx : ∀ i, ∃ r : ℝ, x i = r) (hs : ∀ i, ∃ r : ℝ, s i = r) :
    dequantLast x q s A B = dequantFirst x q s A B := by
  funext i
  unfold dequantLast dequantFirst dequantLastAt dequantFirstAt
  rw [sum_mul_scale (fun k : Fin 4096 => x (ix2 (i 0) k)) (fun k => (((q (ix2 (i 1) k)).toInt : ℝ))) (s (ix1 (i 1)))
    (fun k => hx _) (hs _)]

end Cert.QLora

end
-- ==== Proof.KernelBlock.lean ====
/-
  One grid step's stored block, entry by entry.

  A grid step holds all of `x` (64 × 4096), a block of 256 rows of the integer weights `q` (256 × 4096), the 256 matching
  scales as one row (1 × 256), all of the rank-16 intermediate `xa` (64 × 16) and the 256 matching rows of `B` (256 × 16). It
  stores the 64 × 256 block whose entry `(n, j)` is

      (∑ k, x[n,k] · q[j,k]) · s[j]  +  (∑ r, xa[n,r] · B[j,r]) · 2 :

  both matrix products contract the last axis of both operands, so each entry is an inner product of two rows; the integers are
  read as reals; the scale row is broadcast down the 64 rows; changes of float format are the identity on extended reals.
-/
import proofs.«155028_j74844100100831_2_alg».proof.Proof.Gen.KernelIdeal.Skeleton
import proofs.«155028_j74844100100831_2_alg».proof.Proof.LibDotRows
import proofs.«155028_j74844100100831_2_alg».proof.Proof.Spec
import Idealize.ShloMosaic.Lib.Pipeline.Value
import Idealize.ShloMosaic.Lib.ValueLayout

noncomputable section

open scoped BigOperators

namespace Cert.QLora.Kernel

open Idealize.ShloMosaic Idealize.ShloMosaic.ValueIdx Cert.KernelIdeal Cert.KernelIdeal.Gen Cert.Lib.DotRows Cert.QLora

/-- THE STORED BLOCK AT AN ENTRY `(n, j)`, as a function of the step's five loaded blocks. -/
theorem payload_apply (x0 : FVec Ideal S64x4096 .bf16) (x2 : IVec S256x4096 32) (x5 : FVec Ideal S1x256 .f32)
    (x9 : FVec Ideal S64x16 .bf16) (x11 : FVec Ideal S256x16 .f32) (n : Fin 64) (j : Fin 256) :
    k0_pay1 (F := Ideal) x0 x2 x5 x9 x11 (ix2 n j)
      = (∑ k : Fin 4096, x0 (ix2 n k) * (((x2 (ix2 j k)).toInt : ℝ) : EReal)) * x5 (ix2 (0 : Fin 1) j)
        + (∑ r : Fin 16, x9 (ix2 n r) * x11 (ix2 j r)) * Ideal.ofBits .f32 0x40000000#32 := by
  have e1 := matmul_rows_apply dot_S64x4096_S256x4096_S64x256_1_1_0_0_n_n rfl none x0
    (sitofp .bf16 x2 : FVec Ideal S256x4096 .bf16) n j
  have e2 := matmul_rows_apply dot_S64x16_S256x16_S64x256_1_1_0_0_n_n rfl none x9
    (truncf .bf16 x11 bitsLt_bf16_f32 : FVec Ideal S256x16 .bf16) n j
  have e3 := broadcastTo_1b_ab_apply x5 broadcasts_S1x256_S64x256 n j
  unfold k0_pay1
  simp only [shapeCast_self]
  exact congrArg₂ (· + ·) (congrArg₂ (· * ·) e1 e3) (congrArg (· * _) e2)

/-- THE STORED BLOCK IS A BLOCK OF THE "DEQUANTISE LAST" ARRANGEMENT. Suppose the step's loaded blocks are what they should be for
    output column `o` — block row `j` of the weights and of `B` is row `o` of the arrays, entry `j` of the scale row is the
    scale of column `o`, the activations are whole, and the staged intermediate is `x · Aᵀ`. Then entry `(n, j)` of the stored
    block is the specification's entry `(n, o)`. -/
theorem block_entry (X : (⟨2, ![64, 4096]⟩ : Shape).Idx → EReal) (Q : (⟨2, ![11008, 4096]⟩ : Shape).Idx → BitVec 32)
    (S : (⟨1, ![11008]⟩ : Shape).Idx → EReal) (A : (⟨2, ![16, 4096]⟩ : Shape).Idx → EReal)
    (B : (⟨2, ![11008, 16]⟩ : Shape).Idx → EReal)
    (x0 : FVec Ideal S64x4096 .bf16) (x2 : IVec S256x4096 32) (x5 : FVec Ideal S1x256 .f32)
    (x9 : FVec Ideal S64x16 .bf16) (x11 : FVec Ideal S256x16 .f32) (n : Fin 64) (j : Fin 256) (o : Fin 11008)
    (h0 : ∀ k : Fin 4096, x0 (ix2 n k) = X (ix2 n k)) (h1 : ∀ k : Fin 4096, x2 (ix2 j k) = Q (ix2 o k))
    (h2 : x5 (ix2 (0 : Fin 1) j) = S (ix1 o)) (h3 : ∀ r : Fin 16, x9 (ix2 n r) = lowRank X A n r)
    (h4 : ∀ r : Fin 16, x11 (ix2 j r) = B (ix2 o r)) :
    k0_pay1 (F := Ideal) x0 x2 x5 x9 x11 (ix2 n j) = dequantLastAt X Q S A B n o := by
  rw [payload_apply]
  unfold dequantLastAt lowRankTerm
  simp only [h0, h1, h2, h3, h4]

end Cert.QLora.Kernel

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«155028_j74844100100831_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.KernelOperands.lean ====
/-
  What the grid finds in the three operands the host prepares.

  Before the grid runs, the host (i) rounds the activations `x` to a narrower float format, (ii) reshapes the scale vector
  `s : 11008` into one row `1 × 11008`, and (iii) forms the rank-16 intermediate `x · Aᵀ` — a transpose of `A`, one plain
  matrix product, one more rounding. Over the extended reals a rounding is the identity, the reshape only renames an index, and
  the product's entry `(n, r)` is `∑ k, x[n,k] · A[r,k]`. (The integer weights and `B` are staged as they were launched.)
-/
import proofs.«155028_j74844100100831_2_alg».proof.Proof.Gen.KernelIdeal.Frame
import proofs.«155028_j74844100100831_2_alg».proof.Proof.LibDotColsHost
import proofs.«155028_j74844100100831_2_alg».proof.Proof.Spec
import Idealize.ShloMosaic.Lib.ValueLayout
import Idealize.ShloMosaic.Lib.StableHlo.Run

noncomputable section

open scoped BigOperators

namespace Cert.QLora.Kernel

open Idealize.ShloMosaic Idealize.ShloMosaic.TcCoe Idealize.ShloMosaic.ValueIdx Idealize.SL.Sem Idealize.ShloMosaic.StableHlo
open Cert.KernelIdeal Cert.KernelIdeal.Gen Cert.QLora Cert.Lib.DotColsHost

variable (m : (ℓ : Loc nD τ sig) → Buf (Elt Ideal) ℓ) (c : Dev nD)

/-- The staged activations are the activations. -/
theorem staged_x : (V m c main_v1 : S64x4096.Idx → EReal) = m ((c : Thread nD τ).loc main_arg0) := by
  dsimp only [Gen.V, Gen.hostOps0]; after_results; rfl

/-- The scale row at column `o` is the scale of column `o`. -/
theorem staged_scale (u : Fin 1) (o : Fin 11008) :
    (V m c main_v0 : S1x11008.Idx → EReal) (ix2 u o) = m ((c : Thread nD τ).loc main_arg2) (ix1 o) := by
  have e : (V m c main_v0 : S1x11008.Idx → EReal)
      = shapeCast S1x11008 (m ((c : Thread nD τ).loc main_arg2) : S11008.Idx → EReal) shapeCasts_S11008_S1x11008 := by
    dsimp only [Gen.V, Gen.hostOps0]; after_results; rfl
  rw [e]
  exact shapeCast_a_1a_apply _ _ u o

/-- The staged intermediate at `(n, r)` is the inner product of row `n` of `x` and row `r` of `A`. -/
theorem staged_lowRank (n : Fin 64) (r : Fin 16) :
    (V m c main_v4 : S64x16.Idx → EReal) (ix2 n r)
      = lowRank (m ((c : Thread nD τ).loc main_arg0)) (m ((c : Thread nD τ).loc main_arg3)) n r := by
  have e : (V m c main_v4 : S64x16.Idx → EReal)
      = truncf .bf16 (Host.dotGeneral (F := Ideal) (φ₁ := .f32) (φ₂ := .f32) dot_S64x4096_S4096x16_S64x16_1_0_0_1_n_n none
          (m ((c : Thread nD τ).loc main_arg0) : FVec Ideal S64x4096 .f32)
          (transpose S4096x16 [1, 0] (m ((c : Thread nD τ).loc main_arg3) : FVec Ideal S16x4096 .f32) transposes_S16x4096_S4096x16_1_0)
          : FVec Ideal S64x16 .f32)
          bitsLt_bf16_f32 := by
    dsimp only [Gen.V, Gen.hostOps0]; after_results
  rw [e]
  refine (dotGeneral_cols_apply dot_S64x4096_S4096x16_S64x16_1_0_0_1_n_n rfl none .single _ _ n r).trans ?_
  unfold lowRank
  refine Finset.sum_congr rfl fun k _ => ?_
  rw [transpose_ix2_apply]

end Cert.QLora.Kernel

end
-- ==== Proof.KernelArray.lean ====
/-
  From the grid's blocks to the whole output array.

  The grid has 43 steps. Step `t` sees all of `x` and of the rank-16 intermediate, rows `256·t … 256·t + 255` of the integer
  weights and of `B`, columns `256·t … 256·t + 255` of the scale row, and writes columns `256·t … 256·t + 255` of the
  `64 × 11008` output. So entry `(n, j)` of the block step `t` writes back is the specification's entry `(n, 256·t + j)` in the
  "dequantise last" arrangement; and since `11008 = 43 · 256`, every column `o` lies in the block of step `o / 256`: the blocks
  cover the array, which therefore ends holding that arrangement of the argument arrays.
-/
import proofs.«155028_j74844100100831_2_alg».proof.Proof.Gen.KernelIdeal.Value
import proofs.«155028_j74844100100831_2_alg».proof.Proof.KernelBlock
import proofs.«155028_j74844100100831_2_alg».proof.Proof.KernelOperands

noncomputable section

open scoped BigOperators

namespace Cert.QLora.Kernel

open Idealize.ShloMosaic Idealize.ShloMosaic.TcCoe Idealize.ShloMosaic.ValueIdx Idealize.SL.Sem
open Idealize.ShloMosaic.Pipeline (Dat)
open Cert.KernelIdeal Cert.KernelIdeal.Gen Cert.QLora

variable (m : (ℓ : Loc nD τ sig) → Buf (Elt Ideal) ℓ) (ρ : Dev nD → PrngReg)

theorem origin : (![0, 0] : Fin 2 → Nat) = fun _ => 0 := funext fun a => by fin_cases a <;> rfl

/-- The block each operand shows at step `t`, decided over the 43 steps: `x` and the intermediate stay at block `(0, 0)`; the
    weights and `B` move down their rows with `t`; the scale row and the output move along their columns with `t`. -/
theorem block_indices : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = t.val :=
  (by decide +kernel : ∀ t : Fin grid0.N, _)

theorem step_lt (t : Fin cfg0.N) : t.val < 43 := lt_of_lt_of_eq t.isLt N_0

/-- The output column that block column `j` of step `t` is. -/
def col (t : Fin cfg0.N) (j : Fin 256) : Fin 11008 := ⟨t.val * 256 + j.val, by have := step_lt t; have := j.isLt; omega⟩

/-! ## The operands' blocks at step `t`, entry by entry -/

theorem x_block (c : Dev nD) (t : Fin cfg0.N) (n : Fin 64) (k : Fin 4096) :
    iblk m c 0 t (ix2 n k) = m ((c : Thread nD τ).loc main_arg0) (ix2 n k) := by
  obtain ⟨e0, e1, -⟩ := block_indices t
  have he : ((cfg0.win 0).blk t).view.emb (ix2 n k) = ix2 n k := by
    funext a; apply Fin.ext
    match a with
    | ⟨0, _⟩ => show win0_0.index t (0 : Fin 2) * 64 + 1 * n.val = n.val; omega
    | ⟨1, _⟩ => show win0_0.index t (1 : Fin 2) * 4096 + 1 * k.val = k.val; omega
  show V m c main_v1 (((cfg0.win 0).blk t).view.emb (ix2 n k)) = _
  rw [he, staged_x]

theorem weight_block (c : Dev nD) (t : Fin cfg0.N) (j : Fin 256) (k : Fin 4096) :
    iblk m c 1 t (ix2 j k) = m ((c : Thread nD τ).loc main_arg1) (ix2 (col t j) k) := by
  obtain ⟨-, -, e0, e1, -⟩ := block_indices t
  have he : ((cfg0.win 1).blk t).view.emb (ix2 j k) = ix2 (col t j) k := by
    funext a; apply Fin.ext
    match a with
    | ⟨0, _⟩ => show win0_1.index t (0 : Fin 2) * 256 + 1 * j.val = t.val * 256 + j.val; omega
    | ⟨1, _⟩ => show win0_1.index t (1 : Fin 2) * 4096 + 1 * k.val = k.val; omega
  show V m c main_arg1 (((cfg0.win 1).blk t).view.emb (ix2 j k)) = _
  rw [he, V_main_arg1]

theorem scale_block (c : Dev nD) (t : Fin cfg0.N) (j : Fin 256) :
    iblk m c 2 t (ix2 (0 : Fin 1) j) = m ((c : Thread nD τ).loc main_arg2) (ix1 (col t j)) := by
  obtain ⟨-, -, -, -, e0, e1, -⟩ := block_indices t
  have he : ((cfg0.win 2).blk t).view.emb (ix2 (0 : Fin 1) j) = ix2 (0 : Fin 1) (col t j) := by
    funext a; apply Fin.ext
    match a with
    | ⟨0, _⟩ => show win0_2.index t (0 : Fin 2) * 1 + 1 * 0 = 0; omega
    | ⟨1, _⟩ => show win0_2.index t (1 : Fin 2) * 256 + 1 * j.val = t.val * 256 + j.val; omega
  show V m c main_v0 (((cfg0.win 2).blk t).view.emb (ix2 (0 : Fin 1) j)) = _
  rw [he]
  exact staged_scale m c 0 (col t j)

theorem lowRank_block (c : Dev nD) (t : Fin cfg0.N) (n : Fin 64) (r : Fin 16) :
    iblk m c 3 t (ix2 n r) = lowRank (m ((c : Thread nD τ).loc main_arg0)) (m ((c : Thread nD τ).loc main_arg3)) n r := by
  obtain ⟨-, -, -, -, -, -, e0, e1, -⟩ := block_indices t
  have he : ((cfg0.win 3).blk t).view.emb (ix2 n r) = ix2 n r := by
    funext a; apply Fin.ext
    match a with
    | ⟨0, _⟩ => show win0_3.index t (0 : Fin 2) * 64 + 1 * n.val = n.val; omega
    | ⟨1, _⟩ => show win0_3.index t (1 : Fin 2) * 16 + 1 * r.val = r.val; omega
  show V m c main_v4 (((cfg0.win 3).blk t).view.emb (ix2 n r)) = _
  rw [he]
  exact staged_lowRank m c n r

theorem B_block (c : Dev nD) (t : Fin cfg0.N) (j : Fin 256) (r : Fin 16) :
    iblk m c 4 t (ix2 j r) = m ((c : Thread nD τ).loc main_arg4) (ix2 (col t j) r) := by
  obtain ⟨-, -, -, -, -, -, -, -, e0, e1, -⟩ := block_indices t
  have he : ((cfg0.win 4).blk t).view.emb (ix2 j r) = ix2 (col t j) r := by
    funext a; apply Fin.ext
    match a with
    | ⟨0, _⟩ => show win0_4.index t (0 : Fin 2) * 256 + 1 * j.val = t.val * 256 + j.val; omega
    | ⟨1, _⟩ => show win0_4.index t (1 : Fin 2) * 16 + 1 * r.val = r.val; omega
  show V m c main_arg4 (((cfg0.win 4).blk t).view.emb (ix2 j r)) = _
  rw [he, V_main_arg4]

/-! ## What a step writes back, the cover, and the array -/

/-- WHAT STEP `t` WRITES BACK is block `t` of the "dequantise last" arrangement of the argument arrays. -/
theorem flushed_eq (c : Dev nD) (t : Fin cfg0.N) :
    (dats m 0 c).flushed 5 t = ((cfg0.win 5).blk t).view.read (Elt Ideal)
      (dequantLast (m ((c : Thread nD τ).loc main_arg0)) (m ((c : Thread nD τ).loc main_arg1)) (m ((c : Thread nD τ).loc main_arg2))
        (m ((c : Thread nD τ).loc main_arg3)) (m ((c : Thread nD τ).loc main_arg4))) := by
  rw [Cert.KernelIdeal.Value.flushed5]
  unfold out0_5
  rw [View.canon_unit_zero origin]
  simp only [View.ld_unit_zero (S := S64x4096) origin, View.ld_unit_zero (S := S256x4096) origin, View.ld_unit_zero (S := S1x256) origin,
    View.ld_unit_zero (S := S64x16) origin, View.ld_unit_zero (S := S256x16) origin]
  obtain ⟨-, -, -, -, -, -, -, -, -, -, e0, e1⟩ := block_indices t
  funext y
  obtain ⟨n, j, rfl⟩ : ∃ (n : Fin 64) (j : Fin 256), y = ix2 n j := ⟨y 0, y 1, eq_ix2 y⟩
  have he : ((cfg0.win 5).blk t).view.emb (ix2 n j) = ix2 n (col t j) := by
    funext a; apply Fin.ext
    match a with
    | ⟨0, _⟩ => show win0_5.index t (0 : Fin 2) * 64 + 1 * n.val = n.val; omega
    | ⟨1, _⟩ => show win0_5.index t (1 : Fin 2) * 256 + 1 * j.val = t.val * 256 + j.val; omega
  show k0_pay1 (iblk m c 0 t) (iblk m c 1 t) (iblk m c 2 t) (iblk m c 3 t) (iblk m c 4 t) (ix2 n j)
    = dequantLast _ _ _ _ _ (((cfg0.win 5).blk t).view.emb (ix2 n j))
  rw [he]
  exact block_entry _ _ _ _ _ (iblk m c 0 t) (iblk m c 1 t) (iblk m c 2 t) (iblk m c 3 t) (iblk m c 4 t) n j (col t j)
    (fun k => x_block m c t n k) (fun k => weight_block m c t j k) (scale_block m c t j)
    (fun r => lowRank_block m c t n r) (fun r => B_block m c t j r)

/-- An index of the output is in step `t`'s block iff each coordinate is in the block's range on its axis. -/
theorem mem_block (t : Fin cfg0.N) (i : S64x11008.Idx) :
    i ∈ ((cfg0.win 5).blk t).view.set ↔ ∀ a : Fin 2, win0_5.index t a * S64x256.size a ≤ (i a).val
      ∧ (i a).val < win0_5.index t a * S64x256.size a + S64x256.size a := by
  show i ∈ ((View.whole main_v5).slice (win0_5.rect t)).set ↔ _
  rw [View.set_slice_whole, Rect.mem_set_unit]
  exact Iff.rfl

/-- EVERY OUTPUT INDEX IS WRITTEN: column `o` lies in the block of step `o / 256`. -/
theorem covered (i : S64x11008.Idx) : ∃ t : Fin cfg0.N, (cfg0.win 5).flush t = true ∧ i ∈ ((cfg0.win 5).blk t).view.set := by
  have h0 : (i 0).val < 64 := (i 0).isLt
  have h1 : (i 1).val < 11008 := (i 1).isLt
  have hlt : (i 1).val / 256 < cfg0.N := lt_of_lt_of_eq (by omega : (i 1).val / 256 < 43) N_0.symm
  refine ⟨⟨(i 1).val / 256, hlt⟩, flush0_5 _, ?_⟩
  rw [mem_block]
  obtain ⟨-, -, -, -, -, -, -, -, -, -, e0, e1⟩ := block_indices ⟨(i 1).val / 256, hlt⟩
  have e1' : win0_5.index ⟨(i 1).val / 256, hlt⟩ (1 : Fin 2) = (i 1).val / 256 := e1
  intro a
  match a with
  | ⟨0, _⟩ =>
    show win0_5.index ⟨(i 1).val / 256, hlt⟩ (0 : Fin 2) * 64 ≤ (i 0).val
      ∧ (i 0).val < win0_5.index ⟨(i 1).val / 256, hlt⟩ (0 : Fin 2) * 64 + 64
    omega
  | ⟨1, _⟩ =>
    show win0_5.index ⟨(i 1).val / 256, hlt⟩ (1 : Fin 2) * 256 ≤ (i 1).val
      ∧ (i 1).val < win0_5.index ⟨(i 1).val / 256, hlt⟩ (1 : Fin 2) * 256 + 256
    omega

/-- THE OUTPUT ARRAY after the run is the "dequantise last" arrangement of the argument arrays. -/
theorem final (c : Dev nD) : (dats m 0 c).arrAt 5 cfg0.N
    = dequantLast (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) covered

/-- The kernel's run, with its result named: every weakly fair execution ends with the output at the "dequantise last"
    arrangement of the arguments, and the arguments unchanged. -/
theorem run : θ_run defs (onTc (τ := τ) (main (F := Ideal))) ⟨m, fun _ => 0, ρ⟩ fun r => ∀ c : Dev nD,
      r.2.mem ((c : Thread nD τ).loc main_v5)
        = dequantLast (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.QLora.Kernel

end
-- ==== Proof.ReferenceValue.lean ====
/-
  The reference's result is the "dequantise first" arrangement.

  The reference converts the integer weights to floats, multiplies each by its column's scale (broadcast along the row),
  transposes, and contracts with the activations: at entry `(n, o)` that is `∑ k, x[n,k] · (q[o,k] · s[o])`. Its low-rank path
  is two more contractions, `(x · Aᵀ) · Bᵀ`, times the constant 2, added on. Reading the generated stages one at a time, each
  layout operation only renames an index — the transposes swap the two coordinates, the two broadcasts of the scale forget the
  column coordinate — and the three contractions are the sums of the specification, term by term.
-/
import proofs.«155028_j74844100100831_2_alg».proof.Proof.Gen.ReferenceIdeal.Read
import proofs.«155028_j74844100100831_2_alg».proof.Proof.Spec

noncomputable section

open scoped BigOperators

namespace Cert.QLora.Reference

open Idealize.ShloMosaic Idealize.ShloMosaic.ValueIdx Cert.ReferenceIdeal Cert.ReferenceIdeal.Read Cert.QLora

/-! ## The index each stage reads, in coordinates -/

theorem lhs_base (n : Fin 64) (o : Fin 11008) (k : Fin 4096) : lidx_main_v5 (ix2 n o) k = ix2 n k :=
  funext fun a => match a with | ⟨0, _⟩ => rfl | ⟨1, _⟩ => rfl
theorem rhs_base (n : Fin 64) (o : Fin 11008) (k : Fin 4096) : idx_main_v4 (ridx_main_v5 (ix2 n o) k) = ix2 o k :=
  funext fun a => match a with | ⟨0, _⟩ => rfl | ⟨1, _⟩ => rfl
theorem scale_idx (o : Fin 11008) (k : Fin 4096) : idx_main_v1 (idx_main_v2 (ix2 o k)) = ix1 o :=
  funext fun a => match a with | ⟨0, _⟩ => rfl
theorem lhs_out (n : Fin 64) (o : Fin 11008) (r : Fin 16) : lidx_main_v9 (ix2 n o) r = ix2 n r :=
  funext fun a => match a with | ⟨0, _⟩ => rfl | ⟨1, _⟩ => rfl
theorem rhs_out (n : Fin 64) (o : Fin 11008) (r : Fin 16) : idx_main_v8 (ridx_main_v9 (ix2 n o) r) = ix2 o r :=
  funext fun a => match a with | ⟨0, _⟩ => rfl | ⟨1, _⟩ => rfl
theorem lhs_low (n : Fin 64) (r : Fin 16) (k : Fin 4096) : lidx_main_v7 (ix2 n r) k = ix2 n k :=
  funext fun a => match a with | ⟨0, _⟩ => rfl | ⟨1, _⟩ => rfl
theorem rhs_low (n : Fin 64) (r : Fin 16) (k : Fin 4096) : idx_main_v6 (ridx_main_v7 (ix2 n r) k) = ix2 r k :=
  funext fun a => match a with | ⟨0, _⟩ => rfl | ⟨1, _⟩ => rfl

/-! ## The stages, read at an entry -/

/-- The rank-16 intermediate `x · Aᵀ` at `(n, r)`. -/
theorem lowRank_stage (x : (⟨S64x4096, .f32⟩ : BufTy).Contents (Elt Ideal)) (A : (⟨S16x4096, .f32⟩ : BufTy).Contents (Elt Ideal))
    (n : Fin 64) (r : Fin 16) : val_main_v7 (F := Ideal) x A (ix2 n r) = lowRank x A n r := by
  rw [val_main_v7_apply]
  unfold lowRank
  refine Finset.sum_congr rfl fun k _ => ?_
  rw [val_main_v6_apply, lhs_low, rhs_low]

/-- The base product at `(n, o)`: every weight scaled, then summed against the activations. -/
theorem base_stage (x : (⟨S64x4096, .f32⟩ : BufTy).Contents (Elt Ideal)) (q : (⟨S11008x4096, .i32⟩ : BufTy).Contents (Elt Ideal))
    (s : (⟨S11008, .f32⟩ : BufTy).Contents (Elt Ideal)) (n : Fin 64) (o : Fin 11008) :
    val_main_v5 (F := Ideal) x q s (ix2 n o) = ∑ k : Fin 4096, x (ix2 n k) * ((((q (ix2 o k)).toInt : ℝ) : EReal) * s (ix1 o)) := by
  rw [val_main_v5_apply]
  refine Finset.sum_congr rfl fun k _ => ?_
  rw [val_main_v4_apply, val_main_v3_apply, val_main_v0_apply, val_main_v2_apply, val_main_v1_apply, lhs_base, rhs_base, scale_idx]
  rfl

/-- The low-rank correction at `(n, o)`. -/
theorem lowRankTerm_stage (x : (⟨S64x4096, .f32⟩ : BufTy).Contents (Elt Ideal)) (A : (⟨S16x4096, .f32⟩ : BufTy).Contents (Elt Ideal))
    (B : (⟨S11008x16, .f32⟩ : BufTy).Contents (Elt Ideal)) (n : Fin 64) (o : Fin 11008) :
    val_main_v11 (F := Ideal) x A B (ix2 n o) = lowRankTerm x A B n o := by
  rw [val_main_v11_apply, val_main_v9_apply, val_main_v10_apply, val_main_cst_apply]
  unfold lowRankTerm
  have e : ∀ r : Fin 16, val_main_v7 (F := Ideal) x A (lidx_main_v9 (ix2 n o) r) * val_main_v8 (F := Ideal) B (ridx_main_v9 (ix2 n o) r)
      = lowRank x A n r * B (ix2 o r) := fun r => by
    rw [val_main_v8_apply, lhs_out, rhs_out, lowRank_stage]
  rw [Finset.sum_congr rfl fun r _ => e r]
  rfl

/-- THE REFERENCE'S RESULT is the "dequantise first" arrangement of its arguments. -/
theorem result_eq (x : (⟨S64x4096, .f32⟩ : BufTy).Contents (Elt Ideal)) (q : (⟨S11008x4096, .i32⟩ : BufTy).Contents (Elt Ideal))
    (s : (⟨S11008, .f32⟩ : BufTy).Contents (Elt Ideal)) (A : (⟨S16x4096, .f32⟩ : BufTy).Contents (Elt Ideal))
    (B : (⟨S11008x16, .f32⟩ : BufTy).Contents (Elt Ideal)) :
    val_main_v12 (F := Ideal) x q s A B = dequantFirst x q s A B := by
  funext i
  obtain ⟨n, o, rfl⟩ : ∃ (n : Fin 64) (o : Fin 11008), i = ix2 n o := ⟨i 0, i 1, eq_ix2 i⟩
  rw [val_main_v12_apply, base_stage, lowRankTerm_stage]
  rfl

end Cert.QLora.Reference

end
-- ==== Proof.Finite.lean ====
/-
  From the precondition to real numbers.

  The precondition tests, for each float input, that every entry `a` satisfies `|a| < +∞`, and conjoins the four tests. On
  the extended reals `|a| = max a (−a)`, which is `+∞` exactly when `a` is one of the two infinities; so an entry that passes
  is a real number. The joining law needs this of the activations and of the scales only.
-/
import proofs.«155028_j74844100100831_2_alg».proof.Pre_finite_inputs
import Idealize.ShloMosaic.Lib.ReduceAll
import Idealize.ShloMosaic.Lib.ValueIdx
import Idealize.ShloMosaic.PureOps.Ideal.Laws

noncomputable section

namespace Cert.QLora.Finite

open Idealize.ShloMosaic Cert.Pre_finite_inputs

/-- The word the tests compare against is `+∞`. -/
theorem inf_word : Ideal.ofBits .f32 0x7F800000#32 = (⊤ : EReal) := by simp [Ideal.ofBits, Ideal.ieee]

/-- An extended real whose absolute value is below `+∞` is a real number. -/
theorem real_of_abs_lt_top (a : EReal) (h : max a (-a) < ⊤) : ∃ r : ℝ, a = r := by
  induction a using EReal.rec with
  | bot => simp at h
  | coe r => exact ⟨r, rfl⟩
  | top => simp at h

/-- An entry that passes the test `|a| < +∞` is a real number. -/
theorem real_of_test (a : Ideal .f32)
    (h : FloatOps.cmpf (F := Ideal) .olt (FloatOps.hostAbsf a) (Ideal.ofBits .f32 0x7F800000#32) = 1#1) : ∃ r : ℝ, a = r := by
  rw [inf_word] at h
  refine real_of_abs_lt_top a ?_
  by_contra hn
  have h0 : FloatOps.cmpf (F := Ideal) (φ := .f32) .olt (FloatOps.hostAbsf a) (⊤ : EReal) = 0#1 := by
    show BitVec.ofBool (decide (max a (-a) < ⊤)) = 0#1
    rw [decide_eq_false hn]; rfl
  rw [h0] at h
  exact absurd h (by decide)

instance : Subsingleton S_.Idx := ⟨fun a b => funext fun d => d.elim0⟩

variable [Facts]

/-- UNDER THE PRECONDITION every activation and every scale is a real number. -/
theorem reals_of_pre (x0 : FVec Ideal S64x4096 .f32) (x1 : IVec S11008x4096 32) (x2 : FVec Ideal S11008 .f32)
    (x3 : FVec Ideal S16x4096 .f32) (x4 : FVec Ideal S11008x16 .f32)
    (h : fn (F := Ideal) x0 x1 x2 x3 x4 = fun _ => 1#1) :
    (∀ i, ∃ r : ℝ, x0 i = r) ∧ (∀ i, ∃ r : ℝ, x2 i = r) := by
  have h' := congrFun h ValueIdx.ix0
  dsimp only [fn, fn_part1, andi] at h'
  obtain ⟨h123, -⟩ := IntOp.andi_eq_one.1 h'
  obtain ⟨h12, -⟩ := IntOp.andi_eq_one.1 h123
  obtain ⟨h1, h2⟩ := IntOp.andi_eq_one.1 h12
  exact ⟨fun i => real_of_test _ (Host.reduce_andi_all _ _ _ _ _ h1 i), fun i => real_of_test _ (Host.reduce_andi_all _ _ _ _ _ h2 i)⟩

end Cert.QLora.Finite

end
-- ==== Proof.lean ====
/-
  A quantised linear layer with a low-rank correction, computed two ways.

  With activations `x : 64 × 4096`, integer weights `q : 11008 × 4096`, one scale per output column `s : 11008` and low-rank
  factors `A : 16 × 4096`, `B : 11008 × 16`, the output entry `(n, o)` is

      base(n, o) + (∑ r, (∑ k, x[n,k] · A[r,k]) · B[o,r]) · 2.

  The reference dequantises first: `base(n, o) = ∑ k, x[n,k] · (q[o,k] · s[o])`. The kernel tiles the output columns into 43
  blocks of 256 and dequantises last: within a block it sums the integer products and multiplies the block's columns by their
  scales once, `base(n, o) = (∑ k, x[n,k] · q[o,k]) · s[o]`; the rank-16 intermediate `x · Aᵀ` is formed once before the grid.
  Over the extended reals the two base products agree because a real scale distributes over a finite sum of real products —
  this is where the precondition is used: it makes every activation and every scale a real number (the integers always are).
  Changes of float format are the identity on extended reals, and the low-rank term is the same expression on both sides.

  The modules: `Spec` (the two arrangements and the law), `ReferenceValue` (the reference's result is "dequantise first"),
  `KernelBlock` (one grid step's stored block, entry by entry), `KernelOperands` (what the grid finds in the operands the
  host prepares), `KernelArray` (the blocks cover the output, which ends at "dequantise last"), `Finite` (real numbers from
  the precondition). Here the five claims are assembled.
-/
import proofs.«155028_j74844100100831_2_alg».proof.Defs
import proofs.«155028_j74844100100831_2_alg».proof.Proof.Gen.Kernel
import proofs.«155028_j74844100100831_2_alg».proof.Proof.Gen.Kernel.Skeleton
import proofs.«155028_j74844100100831_2_alg».proof.Proof.Gen.Kernel.Launch
import proofs.«155028_j74844100100831_2_alg».proof.Proof.Gen.Kernel.Points
import proofs.«155028_j74844100100831_2_alg».proof.Proof.Gen.Kernel.Frame
import proofs.«155028_j74844100100831_2_alg».proof.Proof.Gen.KernelIdeal
import proofs.«155028_j74844100100831_2_alg».proof.Proof.Gen.KernelIdeal.Skeleton
import proofs.«155028_j74844100100831_2_alg».proof.Proof.Gen.KernelIdeal.Launch
import proofs.«155028_j74844100100831_2_alg».proof.Proof.Gen.KernelIdeal.Points
import proofs.«155028_j74844100100831_2_alg».proof.Proof.Gen.KernelIdeal.Frame
import proofs.«155028_j74844100100831_2_alg».proof.Proof.Gen.ReferenceIdeal
import proofs.«155028_j74844100100831_2_alg».proof.Proof.Gen.Pre_finite_inputs
import proofs.«155028_j74844100100831_2_alg».proof.Proof.Gen.KernelIdeal.Value
import proofs.«155028_j74844100100831_2_alg».proof.Proof.Gen.ReferenceIdeal.Run
import proofs.«155028_j74844100100831_2_alg».proof.Proof.Gen.ReferenceIdeal.Read
import proofs.«155028_j74844100100831_2_alg».proof.Proof.KernelArray
import proofs.«155028_j74844100100831_2_alg».proof.Proof.ReferenceValue
import proofs.«155028_j74844100100831_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals, from memories that agree on the five arguments, both programs end with the output at the
    "dequantise first" arrangement of the arguments: the reference by reading its stages, the kernel because its blocks cover
    the output with the "dequantise last" arrangement, which is the same function once the activations and scales are real. -/
theorem algebraic : Cert.algebraic_KernelIdeal_ReferenceIdeal := by
  intro m ρ m' ρ' hpre hagree
  refine ⟨fun c => Cert.QLora.dequantFirst
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩) (Cert.QLora.Kernel.run m ρ)
    obtain ⟨hx, hs⟩ := Cert.QLora.Finite.reals_of_pre _ _ _ _ _ (hpre c)
    exact Cert.QLora.dequantLast_eq_dequantFirst _ _ _ _ _ hx hs
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2]
    exact (Cert.ReferenceIdeal.Read.val_main_v12_eq _ _ _ _ _).trans (Cert.QLora.Reference.result_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
